-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  main_v3
-- ==== Kernel.lean ====
abbrev S32x1x512x512 : Shape := ⟨4, ![32, 1, 512, 512]⟩
abbrev S32x16129x64 : Shape := ⟨3, ![32, 16129, 64]⟩
abbrev S1x1x512x512 : Shape := ⟨4, ![1, 1, 512, 512]⟩
abbrev S1x16129x64 : Shape := ⟨3, ![1, 16129, 64]⟩
abbrev S512x512 : Shape := ⟨2, ![512, 512]⟩
abbrev S128x4x512 : Shape := ⟨3, ![128, 4, 512]⟩
abbrev S127x1x512 : Shape := ⟨3, ![127, 1, 512]⟩
abbrev S127x512 : Shape := ⟨2, ![127, 512]⟩
abbrev S1x127x512 : Shape := ⟨3, ![1, 127, 512]⟩
abbrev S8x127x512 : Shape := ⟨3, ![8, 127, 512]⟩
abbrev S8x512x127 : Shape := ⟨3, ![8, 512, 127]⟩
abbrev S8x128x4x127 : Shape := ⟨4, ![8, 128, 4, 127]⟩
abbrev S8x127x1x127 : Shape := ⟨4, ![8, 127, 1, 127]⟩
abbrev S8x127x127 : Shape := ⟨3, ![8, 127, 127]⟩
abbrev S1x8x127x127 : Shape := ⟨4, ![1, 8, 127, 127]⟩
abbrev S8x8x127x127 : Shape := ⟨4, ![8, 8, 127, 127]⟩
abbrev S127x127x8x8 : Shape := ⟨4, ![127, 127, 8, 8]⟩
abbrev S16129x64 : Shape := ⟨2, ![16129, 64]⟩

abbrev nBuf : Space → Nat
  | .hbm => 2
  | .vmem => 4
  | .smem => 0
  | _ => 0

abbrev bufTy : (tb : Table) → Fin (tcTables nBuf tb) → BufTy
  | .hbm, ⟨0, _⟩ => ⟨S32x1x512x512, .f32⟩
  | .hbm, ⟨1, _⟩ => ⟨S32x16129x64, .f32⟩
  | .local _ .vmem, ⟨0, _⟩ => ⟨S1x1x512x512, .f32⟩
  | .local _ .vmem, ⟨1, _⟩ => ⟨S1x1x512x512, .f32⟩
  | .local _ .vmem, ⟨2, _⟩ => ⟨S1x16129x64, .f32⟩
  | .local _ .vmem, ⟨3, _⟩ => ⟨S1x16129x64, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16129x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S128x4x512 : S512x512.ShapeCasts S128x4x512
  slices_S128x4x512_o0_0_0_S127x1x512 : S128x4x512.Slices ![0, 0, 0] S127x1x512
  shapeCasts_S127x1x512_S127x512 : S127x1x512.ShapeCasts S127x512
  slices_S128x4x512_o0_1_0_S127x1x512 : S128x4x512.Slices ![0, 1, 0] S127x1x512
  slices_S128x4x512_o0_2_0_S127x1x512 : S128x4x512.Slices ![0, 2, 0] S127x1x512
  slices_S128x4x512_o0_3_0_S127x1x512 : S128x4x512.Slices ![0, 3, 0] S127x1x512
  slices_S128x4x512_o1_0_0_S127x1x512 : S128x4x512.Slices ![1, 0, 0] S127x1x512
  slices_S128x4x512_o1_1_0_S127x1x512 : S128x4x512.Slices ![1, 1, 0] S127x1x512
  slices_S128x4x512_o1_2_0_S127x1x512 : S128x4x512.Slices ![1, 2, 0] S127x1x512
  slices_S128x4x512_o1_3_0_S127x1x512 : S128x4x512.Slices ![1, 3, 0] S127x1x512
  shapeCasts_S127x512_S1x127x512 : S127x512.ShapeCasts S1x127x512
  concatenates_S1x127x512_S1x127x512_S1x127x512_S1x127x512_S1x127x512_S1x127x512_S1x127x512_S1x127x512_S8x127x512_d0 : Shape.Concatenates [S1x127x512, S1x127x512, S1x127x512, S1x127x512, S1x127x512, S1x127x512, S1x127x512, S1x127x512] S8x127x512 0
  transposes_S8x127x512_p0_2_1_S8x512x127 : S8x127x512.Transposes [0, 2, 1] S8x512x127
  shapeCasts_S8x512x127_S8x128x4x127 : S8x512x127.ShapeCasts S8x128x4x127
  slices_S8x128x4x127_o0_0_0_0_S8x127x1x127 : S8x128x4x127.Slices ![0, 0, 0, 0] S8x127x1x127
  shapeCasts_S8x127x1x127_S8x127x127 : S8x127x1x127.ShapeCasts S8x127x127
  slices_S8x128x4x127_o0_0_1_0_S8x127x1x127 : S8x128x4x127.Slices ![0, 0, 1, 0] S8x127x1x127
  slices_S8x128x4x127_o0_0_2_0_S8x127x1x127 : S8x128x4x127.Slices ![0, 0, 2, 0] S8x127x1x127
  slices_S8x128x4x127_o0_0_3_0_S8x127x1x127 : S8x128x4x127.Slices ![0, 0, 3, 0] S8x127x1x127
  slices_S8x128x4x127_o0_1_0_0_S8x127x1x127 : S8x128x4x127.Slices ![0, 1, 0, 0] S8x127x1x127
  slices_S8x128x4x127_o0_1_1_0_S8x127x1x127 : S8x128x4x127.Slices ![0, 1, 1, 0] S8x127x1x127
  slices_S8x128x4x127_o0_1_2_0_S8x127x1x127 : S8x128x4x127.Slices ![0, 1, 2, 0] S8x127x1x127
  slices_S8x128x4x127_o0_1_3_0_S8x127x1x127 : S8x128x4x127.Slices ![0, 1, 3, 0] S8x127x1x127
  shapeCasts_S8x127x127_S1x8x127x127 : S8x127x127.ShapeCasts S1x8x127x127
  concatenates_S1x8x127x127_S1x8x127x127_S1x8x127x127_S1x8x127x127_S1x8x127x127_S1x8x127x127_S1x8x127x127_S1x8x127x127_S8x8x127x127_d0 : Shape.Concatenates [S1x8x127x127, S1x8x127x127, S1x8x127x127, S1x8x127x127, S1x8x127x127, S1x8x127x127, S1x8x127x127, S1x8x127x127] S8x8x127x127 0
  transposes_S8x8x127x127_p3_2_1_0_S127x127x8x8 : S8x8x127x127.Transposes [3, 2, 1, 0] S127x127x8x8
  shapeCasts_S127x127x8x8_S16129x64 : S127x127x8x8.ShapeCasts S16129x64
  inb_S1x16129x64_S1x16129x64_0_0_0 : ∀ a, (![0, 0, 0] : Fin 3 → Nat) a + S1x16129x64.size a ≤ S1x16129x64.size a
  h_S1x16129x64 : 0 < S1x16129x64.numel
  shapeCasts_S1x16129x64_S16129x64 : S1x16129x64.ShapeCasts S16129x64
  shapeCasts_S16129x64_S1x16129x64 : S16129x64.ShapeCasts S1x16129x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S32x1x512x512.size a
  hwx0_0 : ∀ i : grid0.Coords, EltTy.bits .f32 = 32 ∨ (Rect.block (s := S32x1x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16129x64.size a ≤ S32x16129x64.size a
  hwx0_1 : ∀ i : grid0.Coords, EltTy.bits .f32 = 32 ∨ (Rect.block (s := S32x16129x64) S1x16129x64.size (cc0_transform_1 i) (hinb0_1 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16129x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1x512x512 : Shape := ⟨4, ![32, 1, 512, 512]⟩
abbrev S_ : Shape := ⟨0, ![]⟩
abbrev S127 : Shape := ⟨1, ![127]⟩
abbrev S127x1 : Shape := ⟨2, ![127, 1]⟩
abbrev S8 : Shape := ⟨1, ![8]⟩
abbrev S1x8 : Shape := ⟨2, ![1, 8]⟩
abbrev S127x8 : Shape := ⟨2, ![127, 8]⟩
abbrev S32x512x512 : Shape := ⟨3, ![32, 512, 512]⟩
abbrev S127x1x8x1 : Shape := ⟨4, ![127, 1, 8, 1]⟩
abbrev S1x127x1x8 : Shape := ⟨4, ![1, 127, 1, 8]⟩
abbrev S127x127x8x8 : Shape := ⟨4, ![127, 127, 8, 8]⟩
abbrev S127x127x8x8x1 : Shape := ⟨5, ![127, 127, 8, 8, 1]⟩
abbrev S127x127x8x8x2 : Shape := ⟨5, ![127, 127, 8, 8, 2]⟩
abbrev S32x127x127x8x8 : Shape := ⟨5, ![32, 127, 127, 8, 8]⟩
abbrev S32x16129x64 : Shape := ⟨3, ![32, 16129, 64]⟩

abbrev nBuf : Space → Nat
  | .hbm => 48
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S_, .i32⟩
  | .hbm, ⟨2, _⟩ => ⟨S_, .f32⟩
  | .hbm, ⟨3, _⟩ => ⟨S32x1x512x512, .f32⟩
  | .hbm, ⟨4, _⟩ => ⟨S127, .i32⟩
  | .hbm, ⟨5, _⟩ => ⟨S_, .i32⟩
  | .hbm, ⟨6, _⟩ => ⟨S127, .i32⟩
  | .hbm, ⟨7, _⟩ => ⟨S127, .i32⟩
  | .hbm, ⟨8, _⟩ => ⟨S127x1, .i32⟩
  | .hbm, ⟨9, _⟩ => ⟨S8, .i32⟩
  | .hbm, ⟨10, _⟩ => ⟨S1x8, .i32⟩
  | .hbm, ⟨11, _⟩ => ⟨S127x8, .i32⟩
  | .hbm, ⟨12, _⟩ => ⟨S127x8, .i32⟩
  | .hbm, ⟨13, _⟩ => ⟨S127x8, .i32⟩
  | .hbm, ⟨14, _⟩ => ⟨S127, .i32⟩
  | .hbm, ⟨15, _⟩ => ⟨S_, .i32⟩
  | .hbm, ⟨16, _⟩ => ⟨S127, .i32⟩
  | .hbm, ⟨17, _⟩ => ⟨S127, .i32⟩
  | .hbm, ⟨18, _⟩ => ⟨S127x1, .i32⟩
  | .hbm, ⟨19, _⟩ => ⟨S8, .i32⟩
  | .hbm, ⟨20, _⟩ => ⟨S1x8, .i32⟩
  | .hbm, ⟨21, _⟩ => ⟨S127x8, .i32⟩
  | .hbm, ⟨22, _⟩ => ⟨S127x8, .i32⟩
  | .hbm, ⟨23, _⟩ => ⟨S127x8, .i32⟩
  | .hbm, ⟨24, _⟩ => ⟨S32x512x512, .f32⟩
  | .hbm, ⟨25, _⟩ => ⟨S127x1x8x1, .i32⟩
  | .hbm, ⟨26, _⟩ => ⟨S1x127x1x8, .i32⟩
  | .hbm, ⟨27, _⟩ => ⟨S_, .i32⟩
  | .hbm, ⟨28, _⟩ => ⟨S127x1x8x1, .i32⟩
  | .hbm, ⟨29, _⟩ => ⟨S127x1x8x1, .i1⟩
  | .hbm, ⟨30, _⟩ => ⟨S_, .i32⟩
  | .hbm, ⟨31, _⟩ => ⟨S127x1x8x1, .i32⟩
  | .hbm, ⟨32, _⟩ => ⟨S127x1x8x1, .i32⟩
  | .hbm, ⟨33, _⟩ => ⟨S127x1x8x1, .i32⟩
  | .hbm, ⟨34, _⟩ => ⟨S_, .i32⟩
  | .hbm, ⟨35, _⟩ => ⟨S1x127x1x8, .i32⟩
  | .hbm, ⟨36, _⟩ => ⟨S1x127x1x8, .i1⟩
  | .hbm, ⟨37, _⟩ => ⟨S_, .i32⟩
  | .hbm, ⟨38, _⟩ => ⟨S1x127x1x8, .i32⟩
  | .hbm, ⟨39, _⟩ => ⟨S1x127x1x8, .i32⟩
  | .hbm, ⟨40, _⟩ => ⟨S1x127x1x8, .i32⟩
  | .hbm, ⟨41, _⟩ => ⟨S127x127x8x8, .i32⟩
  | .hbm, ⟨42, _⟩ => ⟨S127x127x8x8, .i32⟩
  | .hbm, ⟨43, _⟩ => ⟨S127x127x8x8x1, .i32⟩
  | .hbm, ⟨44, _⟩ => ⟨S127x127x8x8x1, .i32⟩
  | .hbm, ⟨45, _⟩ => ⟨S127x127x8x8x2, .i32⟩
  | .hbm, ⟨46, _⟩ => ⟨S32x127x127x8x8, .f32⟩
  | .hbm, ⟨47, _⟩ => ⟨S32x16129x64, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_v22 : Ref sig .tc := ⟨.hbm, 28, rfl⟩
abbrev main_v23 : Ref sig .tc := ⟨.hbm, 29, rfl⟩
abbrev main_c_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_4 : Ref sig .tc := ⟨.hbm, 34, rfl⟩
abbrev main_v27 : Ref sig .tc := ⟨.hbm, 35, rfl⟩
abbrev main_v28 : Ref sig .tc := ⟨.hbm, 36, rfl⟩
abbrev main_c_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]

class Facts₀ : Prop where
  pads_S32x1x512x512_S32x1x512x512_000_000_000_000 : S32x1x512x512.Pads (![0, 0, 0, 0] : Fin 4 → Nat) ![0, 0, 0, 0] ![0, 0, 0, 0] S32x1x512x512
  h_S_ : 0 < S_.numel
  bcast_S_S127 : S_.BroadcastsInDim S127 (![] : Fin 0 → Fin S127.rank)
  bcast_S127_S127x1_0 : S127.BroadcastsInDim S127x1 (![0] : Fin 1 → Fin S127x1.rank)
  bcast_S8_S1x8_1 : S8.BroadcastsInDim S1x8 (![1] : Fin 1 → Fin S1x8.rank)
  bcast_S127x1_S127x8_0_1 : S127x1.BroadcastsInDim S127x8 (![0, 1] : Fin 2 → Fin S127x8.rank)
  bcast_S1x8_S127x8_0_1 : S1x8.BroadcastsInDim S127x8 (![0, 1] : Fin 2 → Fin S127x8.rank)
  shapeCasts_S32x1x512x512_S32x512x512 : S32x1x512x512.ShapeCasts S32x512x512
  bcast_S127x8_S127x1x8x1_0_2 : S127x8.BroadcastsInDim S127x1x8x1 (![0, 2] : Fin 2 → Fin S127x1x8x1.rank)
  bcast_S127x8_S1x127x1x8_1_3 : S127x8.BroadcastsInDim S1x127x1x8 (![1, 3] : Fin 2 → Fin S1x127x1x8.rank)
  bcast_S_S127x1x8x1 : S_.BroadcastsInDim S127x1x8x1 (![] : Fin 0 → Fin S127x1x8x1.rank)
  bcast_S_S1x127x1x8 : S_.BroadcastsInDim S1x127x1x8 (![] : Fin 0 → Fin S1x127x1x8.rank)
  bcast_S127x1x8x1_S127x127x8x8_0_1_2_3 : S127x1x8x1.BroadcastsInDim S127x127x8x8 (![0, 1, 2, 3] : Fin 4 → Fin S127x127x8x8.rank)
  bcast_S1x127x1x8_S127x127x8x8_0_1_2_3 : S1x127x1x8.BroadcastsInDim S127x127x8x8 (![0, 1, 2, 3] : Fin 4 → Fin S127x127x8x8.rank)
  bcast_S127x127x8x8_S127x127x8x8x1_0_1_2_3 : S127x127x8x8.BroadcastsInDim S127x127x8x8x1 (![0, 1, 2, 3] : Fin 4 → Fin S127x127x8x8x1.rank)
  concatenates_S127x127x8x8x1_S127x127x8x8x1_S127x127x8x8x2_d4 : Shape.Concatenates [S127x127x8x8x1, S127x127x8x8x1] S127x127x8x8x2 4
  shapeCasts_S32x127x127x8x8_S32x16129x64 : S32x127x127x8x8.ShapeCasts S32x16129x64
  gather_S32x512x512_S127x127x8x8x2_S32x127x127x8x8_0_12_n_n_12_4_3211_wf : GatherDims.WF S32x512x512 S127x127x8x8x2 S32x127x127x8x8 [0] [1, 2] [] [1, 2] [] 4 ![32, 1, 1]

variable [Facts₀]

def gather_S32x512x512_S127x127x8x8x2_S32x127x127x8x8_0_12_n_n_12_4_3211 : GatherDims S32x512x512 S127x127x8x8x2 S32x127x127x8x8 where
  offsetDims := [0]
  collapsedSliceDims := [1, 2]
  operandBatchingDims := []
  startIndicesBatchingDims := []
  startIndexMap := [1, 2]
  indexVectorDim := 4
  sliceSizes := ![32, 1, 1]
  wf := gather_S32x512x512_S127x127x8x8x2_S32x127x127x8x8_0_12_n_n_12_4_3211_wf

class Facts : Prop extends Facts₀ where

variable [Facts]
-- ==== Proof.Taps.lean ====
/-
  Layout chains of the patch-extraction body, read at an index.

  The body re-lays one 512 x 512 image block in three stages. Rows are split as 512 = 128 groups x 4 phases, and a
  row tap (g, p) keeps groups g .. g + 126 at phase p: entry (r, w) of the tap is image row 4 (g + r) + p, so with
  ki = 4 g + p it is image row 4 r + ki. After a transpose the columns are split the same way, and a column tap
  (g', p') at entry (ki, c, r) reads column 4 (g' + c) + p' = 4 c + kj with kj = 4 g' + p'. This file states each
  chain once, over an arbitrary operand and arbitrary tap offsets, as "the chain at index j is the operand at k"
  under one linear equation per coordinate.
-/
import proofs.«174867_j51161650430461_2_alg».proof.KernelIdeal
import Idealize.ShloMosaic.Lib.Pipeline.Value
import Idealize.ShloMosaic.Lib.ValueIdx

noncomputable section

namespace Cert.KernelIdeal.Patches

open Cert.KernelIdeal Idealize.ShloMosaic Idealize.ShloMosaic.ValueIdx

variable {α : Type}

/-- The image block [1, 1, 512, 512] seen as [128, 4, 512]: entry (q, p, w) is image row 4 q + p, column w. -/
theorem rowSplit_read (P : S1x1x512x512.Idx → α) (hA : S1x1x512x512.ShapeCasts S512x512)
    (hB : S512x512.ShapeCasts S128x4x512) (k : S128x4x512.Idx) (i : S1x1x512x512.Idx)
    (hi0 : (i 0).val = 0) (hi1 : (i 1).val = 0) (hi2 : (i 2).val = 4 * (k 0).val + (k 1).val)
    (hi3 : (i 3).val = (k 2).val) :
    shapeCast S128x4x512 (shapeCast S512x512 P hA) hB k = P i := by
  have hk0 : (k 0).val < 128 := (k 0).isLt
  have hk1 : (k 1).val < 4 := (k 1).isLt
  have hk2 : (k 2).val < 512 := (k 2).isLt
  refine (shapeCast_apply _ hB k (ix2 ⟨4 * (k 0).val + (k 1).val, by omega⟩ ⟨(k 2).val, hk2⟩) ?_).trans ?_
  · rw [Shape.rowMajor_val_two, Shape.rowMajor_val_three]
    show (4 * (k 0).val + (k 1).val) * 512 + (k 2).val = ((k 0).val * 4 + (k 1).val) * 512 + (k 2).val
    omega
  refine shapeCast_apply _ hA _ i ?_
  rw [Shape.rowMajor_val_four, Shape.rowMajor_val_two]
  show (((i 0).val * 1 + (i 1).val) * 512 + (i 2).val) * 512 + (i 3).val
    = (4 * (k 0).val + (k 1).val) * 512 + (k 2).val
  rw [hi0, hi1, hi2, hi3]
  omega

/-- A row tap at offsets (g, p): the slice [g .. g + 126, p, :] of the split image, its unit axis dropped and a
    leading unit axis added. Entry (0, r, w) is the split image at (g + r, p, w). -/
theorem rowTap_read (X : S128x4x512.Idx → α) (g p : Nat) (hs : S128x4x512.Slices ![g, p, 0] S127x1x512)
    (h1 : S127x1x512.ShapeCasts S127x512) (h2 : S127x512.ShapeCasts S1x127x512)
    (j : S1x127x512.Idx) (k : S128x4x512.Idx)
    (hk0 : (k 0).val = g + (j 1).val) (hk1 : (k 1).val = p) (hk2 : (k 2).val = (j 2).val) :
    shapeCast S1x127x512 (shapeCast S127x512 (extractStridedSlice S127x1x512 ![g, p, 0] X hs) h1) h2 j = X k := by
  have hj0 : (j 0).val < 1 := (j 0).isLt
  have hj1 : (j 1).val < 127 := (j 1).isLt
  have hj2 : (j 2).val < 512 := (j 2).isLt
  refine (shapeCast_apply _ h2 j (ix2 ⟨(j 1).val, hj1⟩ ⟨(j 2).val, hj2⟩) ?_).trans ?_
  · rw [Shape.rowMajor_val_two, Shape.rowMajor_val_three]
    show (j 1).val * 512 + (j 2).val = ((j 0).val * 127 + (j 1).val) * 512 + (j 2).val
    omega
  refine (shapeCast_apply _ h1 _ (ix3 ⟨(j 1).val, hj1⟩ ⟨0, Nat.one_pos⟩ ⟨(j 2).val, hj2⟩) ?_).trans ?_
  · rw [Shape.rowMajor_val_three, Shape.rowMajor_val_two]
    show ((j 1).val * 1 + 0) * 512 + (j 2).val = (j 1).val * 512 + (j 2).val
    omega
  exact extractStridedSlice_apply _ X hs _ k (fun a => match a with
    | ⟨0, _⟩ => by show (k 0).val = g + (j 1).val; exact hk0
    | ⟨1, _⟩ => by show (k 1).val = p + 0; omega
    | ⟨2, _⟩ => by show (k 2).val = 0 + (j 2).val; omega)

/-- A column tap at offsets (g, p) of a stack W of eight row taps [8, 127, 512]: W is transposed to [8, 512, 127],
    its column axis split as 128 x 4, the slice [:, g .. g + 126, p, :] taken, the unit axis dropped and a leading
    unit axis added. Entry (0, ki, c, r) is W at (ki, r, 4 (g + c) + p). -/
theorem colTap_read (W : S8x127x512.Idx → α) (g p : Nat) (hT : S8x127x512.Transposes [0, 2, 1] S8x512x127)
    (hC : S8x512x127.ShapeCasts S8x128x4x127) (hs : S8x128x4x127.Slices ![0, g, p, 0] S8x127x1x127)
    (h1 : S8x127x1x127.ShapeCasts S8x127x127) (h2 : S8x127x127.ShapeCasts S1x8x127x127)
    (hp : p < 4) (hg : g + 127 ≤ 128)
    (j : S1x8x127x127.Idx) (k : S8x127x512.Idx)
    (hk0 : (k 0).val = (j 1).val) (hk1 : (k 1).val = (j 3).val) (hk2 : (k 2).val = 4 * (g + (j 2).val) + p) :
    shapeCast S1x8x127x127 (shapeCast S8x127x127 (extractStridedSlice S8x127x1x127 ![0, g, p, 0]
      (shapeCast S8x128x4x127 (transpose S8x512x127 [0, 2, 1] W hT) hC) hs) h1) h2 j = W k := by
  have hj0 : (j 0).val < 1 := (j 0).isLt
  have hj1 : (j 1).val < 8 := (j 1).isLt
  have hj2 : (j 2).val < 127 := (j 2).isLt
  have hj3 : (j 3).val < 127 := (j 3).isLt
  refine (shapeCast_apply _ h2 j (ix3 ⟨(j 1).val, hj1⟩ ⟨(j 2).val, hj2⟩ ⟨(j 3).val, hj3⟩) ?_).trans ?_
  · rw [Shape.rowMajor_val_three, Shape.rowMajor_val_four]
    show ((j 1).val * 127 + (j 2).val) * 127 + (j 3).val
      = (((j 0).val * 8 + (j 1).val) * 127 + (j 2).val) * 127 + (j 3).val
    omega
  refine (shapeCast_apply _ h1 _ (ix4 ⟨(j 1).val, hj1⟩ ⟨(j 2).val, hj2⟩ ⟨0, Nat.one_pos⟩ ⟨(j 3).val, hj3⟩) ?_).trans ?_
  · rw [Shape.rowMajor_val_four, Shape.rowMajor_val_three]
    show (((j 1).val * 127 + (j 2).val) * 1 + 0) * 127 + (j 3).val = ((j 1).val * 127 + (j 2).val) * 127 + (j 3).val
    omega
  refine (extractStridedSlice_apply _ _ hs _
    (ix4 ⟨(j 1).val, hj1⟩ ⟨g + (j 2).val, by omega⟩ ⟨p, hp⟩ ⟨(j 3).val, hj3⟩) (fun a => match a with
    | ⟨0, _⟩ => by show (j 1).val = 0 + (j 1).val; omega
    | ⟨1, _⟩ => by show g + (j 2).val = g + (j 2).val; rfl
    | ⟨2, _⟩ => by show p = p + 0; omega
    | ⟨3, _⟩ => by show (j 3).val = 0 + (j 3).val; omega)).trans ?_
  refine (shapeCast_apply _ hC _
    (ix3 ⟨(j 1).val, hj1⟩ ⟨4 * (g + (j 2).val) + p, by omega⟩ ⟨(j 3).val, hj3⟩) ?_).trans ?_
  · rw [Shape.rowMajor_val_three, Shape.rowMajor_val_four]
    show ((j 1).val * 512 + (4 * (g + (j 2).val) + p)) * 127 + (j 3).val
      = (((j 1).val * 128 + (g + (j 2).val)) * 4 + p) * 127 + (j 3).val
    omega
  refine transpose_apply [0, 2, 1] W hT _ k (fun b => match b with
    | ⟨0, _⟩ => by show (k 0).val = (j 1).val; exact hk0
    | ⟨1, _⟩ => by show (k 2).val = 4 * (g + (j 2).val) + p; exact hk2
    | ⟨2, _⟩ => by show (k 1).val = (j 3).val; exact hk1)

end Cert.KernelIdeal.Patches

end
-- ==== Proof.Block.lean ====
/-
  The block one grid point leaves in the output window, read at an index.

  The body stacks eight row taps (ki = 0 .. 7), transposes, takes eight column taps (kj = 0 .. 7) of the stack,
  stacks those, transposes to (r, c, ki, kj) and flattens to [16129, 64]. The generated value leg already reads
  the last three steps: block entry (0, s, q) is column tap q % 8 at (0, q / 8, s % 127, s / 127). Here the taps
  are read down to the image block: row tap ki at (0, r, w) is image entry (4 r + ki, w); the stack at (ki, r, w)
  is the same entry; column tap kj at (0, ki, c, r) is image entry (4 r + ki, 4 c + kj). So block entry (0, s, q)
  is image entry (4 (s / 127) + q / 8, 4 (s % 127) + q % 8): patch s = r * 127 + c, tap q = ki * 8 + kj.
-/
import proofs.«174867_j51161650430461_2_alg».proof.Proof.Gen.KernelIdeal.Value
import proofs.«174867_j51161650430461_2_alg».proof.Proof.Taps

noncomputable section

namespace Cert.KernelIdeal.Patches

open Cert.KernelIdeal Cert.KernelIdeal.Gen Cert.KernelIdeal.Value Idealize.ShloMosaic Idealize.ShloMosaic.TcCoe
open Idealize.ShloMosaic.ValueIdx

variable {F : FTy → Type} [FloatOps F]

/-- The image block with its rows split into 128 groups of 4 phases. -/
abbrev Split (P0 : Vec F S1x1x512x512 .f32) : FVec F S128x4x512 .f32 :=
  shapeCast S128x4x512 (shapeCast S512x512 P0 shapeCasts_S1x1x512x512_S512x512) shapeCasts_S512x512_S128x4x512

/-- Row tap 0 = 4 * 0 + 0: groups 0 .. 126 at phase 0. -/
abbrev rowTap0 (P0 : Vec F S1x1x512x512 .f32) : FVec F S1x127x512 .f32 :=
  shapeCast S1x127x512 (shapeCast S127x512 (extractStridedSlice S127x1x512 ![0, 0, 0] (Split P0) slices_S128x4x512_o0_0_0_S127x1x512) shapeCasts_S127x1x512_S127x512) shapeCasts_S127x512_S1x127x512
/-- Row tap 1 = 4 * 0 + 1: groups 0 .. 126 at phase 1. -/
abbrev rowTap1 (P0 : Vec F S1x1x512x512 .f32) : FVec F S1x127x512 .f32 :=
  shapeCast S1x127x512 (shapeCast S127x512 (extractStridedSlice S127x1x512 ![0, 1, 0] (Split P0) slices_S128x4x512_o0_1_0_S127x1x512) shapeCasts_S127x1x512_S127x512) shapeCasts_S127x512_S1x127x512
/-- Row tap 2 = 4 * 0 + 2: groups 0 .. 126 at phase 2. -/
abbrev rowTap2 (P0 : Vec F S1x1x512x512 .f32) : FVec F S1x127x512 .f32 :=
  shapeCast S1x127x512 (shapeCast S127x512 (extractStridedSlice S127x1x512 ![0, 2, 0] (Split P0) slices_S128x4x512_o0_2_0_S127x1x512) shapeCasts_S127x1x512_S127x512) shapeCasts_S127x512_S1x127x512
/-- Row tap 3 = 4 * 0 + 3: groups 0 .. 126 at phase 3. -/
abbrev rowTap3 (P0 : Vec F S1x1x512x512 .f32) : FVec F S1x127x512 .f32 :=
  shapeCast S1x127x512 (shapeCast S127x512 (extractStridedSlice S127x1x512 ![0, 3, 0] (Split P0) slices_S128x4x512_o0_3_0_S127x1x512) shapeCasts_S127x1x512_S127x512) shapeCasts_S127x512_S1x127x512
/-- Row tap 4 = 4 * 1 + 0: groups 1 .. 127 at phase 0. -/
abbrev rowTap4 (P0 : Vec F S1x1x512x512 .f32) : FVec F S1x127x512 .f32 :=
  shapeCast S1x127x512 (shapeCast S127x512 (extractStridedSlice S127x1x512 ![1, 0, 0] (Split P0) slices_S128x4x512_o1_0_0_S127x1x512) shapeCasts_S127x1x512_S127x512) shapeCasts_S127x512_S1x127x512
/-- Row tap 5 = 4 * 1 + 1: groups 1 .. 127 at phase 1. -/
abbrev rowTap5 (P0 : Vec F S1x1x512x512 .f32) : FVec F S1x127x512 .f32 :=
  shapeCast S1x127x512 (shapeCast S127x512 (extractStridedSlice S127x1x512 ![1, 1, 0] (Split P0) slices_S128x4x512_o1_1_0_S127x1x512) shapeCasts_S127x1x512_S127x512) shapeCasts_S127x512_S1x127x512
/-- Row tap 6 = 4 * 1 + 2: groups 1 .. 127 at phase 2. -/
abbrev rowTap6 (P0 : Vec F S1x1x512x512 .f32) : FVec F S1x127x512 .f32 :=
  shapeCast S1x127x512 (shapeCast S127x512 (extractStridedSlice S127x1x512 ![1, 2, 0] (Split P0) slices_S128x4x512_o1_2_0_S127x1x512) shapeCasts_S127x1x512_S127x512) shapeCasts_S127x512_S1x127x512
/-- Row tap 7 = 4 * 1 + 3: groups 1 .. 127 at phase 3. -/
abbrev rowTap7 (P0 : Vec F S1x1x512x512 .f32) : FVec F S1x127x512 .f32 :=
  shapeCast S1x127x512 (shapeCast S127x512 (extractStridedSlice S127x1x512 ![1, 3, 0] (Split P0) slices_S128x4x512_o1_3_0_S127x1x512) shapeCasts_S127x1x512_S127x512) shapeCasts_S127x512_S1x127x512

/-- The eight row taps, by their number ki. -/
abbrev RowTap (P0 : Vec F S1x1x512x512 .f32) : Fin 8 → FVec F S1x127x512 .f32 := fun n => match n with
  | ⟨0, _⟩ => rowTap0 P0
  | ⟨1, _⟩ => rowTap1 P0
  | ⟨2, _⟩ => rowTap2 P0
  | ⟨3, _⟩ => rowTap3 P0
  | ⟨4, _⟩ => rowTap4 P0
  | ⟨5, _⟩ => rowTap5 P0
  | ⟨6, _⟩ => rowTap6 P0
  | ⟨7, _⟩ => rowTap7 P0

/-- The stack of the eight row taps along a new leading axis: [8, 127, 512]. -/
abbrev RowStack (P0 : Vec F S1x1x512x512 .f32) : FVec F S8x127x512 .f32 :=
  concatenate S8x127x512 0 [⟨S1x127x512, rowTap0 P0⟩, ⟨S1x127x512, rowTap1 P0⟩, ⟨S1x127x512, rowTap2 P0⟩, ⟨S1x127x512, rowTap3 P0⟩, ⟨S1x127x512, rowTap4 P0⟩, ⟨S1x127x512, rowTap5 P0⟩, ⟨S1x127x512, rowTap6 P0⟩, ⟨S1x127x512, rowTap7 P0⟩]
    concatenates_S1x127x512_S1x127x512_S1x127x512_S1x127x512_S1x127x512_S1x127x512_S1x127x512_S1x127x512_S8x127x512_d0

/-- Row tap ki at (0, r, w) is image entry (4 r + ki, w). -/
theorem rowTap_apply (P0 : Vec F S1x1x512x512 .f32) (n : Fin 8) (j : S1x127x512.Idx) (i : S1x1x512x512.Idx)
    (hi0 : (i 0).val = 0) (hi1 : (i 1).val = 0) (hi2 : (i 2).val = 4 * (j 1).val + n.val)
    (hi3 : (i 3).val = (j 2).val) : RowTap P0 n j = P0 i := by
  have hj1 : (j 1).val < 127 := (j 1).isLt
  have hj2 : (j 2).val < 512 := (j 2).isLt
  match n with
  | ⟨0, _⟩ =>
    have hi2' : (i 2).val = 4 * (j 1).val + 0 := hi2
    exact (rowTap_read (Split P0) 0 0 _ _ _ j (ix3 ⟨0 + (j 1).val, by omega⟩ ⟨0, by omega⟩ ⟨(j 2).val, hj2⟩) rfl rfl rfl).trans
      (rowSplit_read P0 _ _ _ i hi0 hi1 (by show (i 2).val = 4 * (0 + (j 1).val) + 0; omega) hi3)
  | ⟨1, _⟩ =>
    have hi2' : (i 2).val = 4 * (j 1).val + 1 := hi2
    exact (rowTap_read (Split P0) 0 1 _ _ _ j (ix3 ⟨0 + (j 1).val, by omega⟩ ⟨1, by omega⟩ ⟨(j 2).val, hj2⟩) rfl rfl rfl).trans
      (rowSplit_read P0 _ _ _ i hi0 hi1 (by show (i 2).val = 4 * (0 + (j 1).val) + 1; omega) hi3)
  | ⟨2, _⟩ =>
    have hi2' : (i 2).val = 4 * (j 1).val + 2 := hi2
    exact (rowTap_read (Split P0) 0 2 _ _ _ j (ix3 ⟨0 + (j 1).val, by omega⟩ ⟨2, by omega⟩ ⟨(j 2).val, hj2⟩) rfl rfl rfl).trans
      (rowSplit_read P0 _ _ _ i hi0 hi1 (by show (i 2).val = 4 * (0 + (j 1).val) + 2; omega) hi3)
  | ⟨3, _⟩ =>
    have hi2' : (i 2).val = 4 * (j 1).val + 3 := hi2
    exact (rowTap_read (Split P0) 0 3 _ _ _ j (ix3 ⟨0 + (j 1).val, by omega⟩ ⟨3, by omega⟩ ⟨(j 2).val, hj2⟩) rfl rfl rfl).trans
      (rowSplit_read P0 _ _ _ i hi0 hi1 (by show (i 2).val = 4 * (0 + (j 1).val) + 3; omega) hi3)
  | ⟨4, _⟩ =>
    have hi2' : (i 2).val = 4 * (j 1).val + 4 := hi2
    exact (rowTap_read (Split P0) 1 0 _ _ _ j (ix3 ⟨1 + (j 1).val, by omega⟩ ⟨0, by omega⟩ ⟨(j 2).val, hj2⟩) rfl rfl rfl).trans
      (rowSplit_read P0 _ _ _ i hi0 hi1 (by show (i 2).val = 4 * (1 + (j 1).val) + 0; omega) hi3)
  | ⟨5, _⟩ =>
    have hi2' : (i 2).val = 4 * (j 1).val + 5 := hi2
    exact (rowTap_read (Split P0) 1 1 _ _ _ j (ix3 ⟨1 + (j 1).val, by omega⟩ ⟨1, by omega⟩ ⟨(j 2).val, hj2⟩) rfl rfl rfl).trans
      (rowSplit_read P0 _ _ _ i hi0 hi1 (by show (i 2).val = 4 * (1 + (j 1).val) + 1; omega) hi3)
  | ⟨6, _⟩ =>
    have hi2' : (i 2).val = 4 * (j 1).val + 6 := hi2
    exact (rowTap_read (Split P0) 1 2 _ _ _ j (ix3 ⟨1 + (j 1).val, by omega⟩ ⟨2, by omega⟩ ⟨(j 2).val, hj2⟩) rfl rfl rfl).trans
      (rowSplit_read P0 _ _ _ i hi0 hi1 (by show (i 2).val = 4 * (1 + (j 1).val) + 2; omega) hi3)
  | ⟨7, _⟩ =>
    have hi2' : (i 2).val = 4 * (j 1).val + 7 := hi2
    exact (rowTap_read (Split P0) 1 3 _ _ _ j (ix3 ⟨1 + (j 1).val, by omega⟩ ⟨3, by omega⟩ ⟨(j 2).val, hj2⟩) rfl rfl rfl).trans
      (rowSplit_read P0 _ _ _ i hi0 hi1 (by show (i 2).val = 4 * (1 + (j 1).val) + 3; omega) hi3)

/-- The stack at (ki, r, w) is image entry (4 r + ki, w). -/
theorem rowStack_apply (P0 : Vec F S1x1x512x512 .f32) (k : S8x127x512.Idx) (i : S1x1x512x512.Idx)
    (hi0 : (i 0).val = 0) (hi1 : (i 1).val = 0) (hi2 : (i 2).val = 4 * (k 1).val + (k 0).val)
    (hi3 : (i 3).val = (k 2).val) : RowStack P0 k = P0 i := by
  have hk0 : (k 0).val < 8 := (k 0).isLt
  have hk1 : (k 1).val < 127 := (k 1).isLt
  have hk2 : (k 2).val < 512 := (k 2).isLt
  show concatenate S8x127x512 0 (List.ofFn fun n : Fin 8 => (⟨S1x127x512, RowTap P0 n⟩ : (s : Shape) × (s.Idx → _))) _ k = _
  refine (concatenate_ofFn_apply (t := S8x127x512) (s₁ := S1x127x512) (0 : Fin 3) (RowTap P0) _ rfl 1 rfl k
    ⟨(k 0).val, hk0⟩ (by show (k 0).val / 1 = (k 0).val; omega)
    (ix3 ⟨0, Nat.one_pos⟩ ⟨(k 1).val, hk1⟩ ⟨(k 2).val, hk2⟩) (by show 0 = (k 0).val % 1; omega)
    (fun b hb => by
      match b with
      | ⟨0, _⟩ => exact absurd rfl hb
      | ⟨1, _⟩ => rfl
      | ⟨2, _⟩ => rfl)).trans ?_
  exact rowTap_apply P0 _ _ i hi0 hi1 hi2 hi3

/-- Column tap kj at (0, ki, c, r) is image entry (4 r + ki, 4 c + kj). -/
theorem colTap_apply (P0 : Vec F S1x1x512x512 .f32) (n : Fin 8) (j : S1x8x127x127.Idx) (i : S1x1x512x512.Idx)
    (hi0 : (i 0).val = 0) (hi1 : (i 1).val = 0) (hi2 : (i 2).val = 4 * (j 3).val + (j 1).val)
    (hi3 : (i 3).val = 4 * (j 2).val + n.val) : Cat1_0 P0 n j = P0 i := by
  have hj1 : (j 1).val < 8 := (j 1).isLt
  have hj2 : (j 2).val < 127 := (j 2).isLt
  have hj3 : (j 3).val < 127 := (j 3).isLt
  match n with
  | ⟨0, _⟩ =>
    have hi3' : (i 3).val = 4 * (j 2).val + 0 := hi3
    exact (colTap_read (RowStack P0) 0 0 _ _ _ _ _ (by omega) (by omega) j
      (ix3 ⟨(j 1).val, hj1⟩ ⟨(j 3).val, hj3⟩ ⟨4 * (0 + (j 2).val) + 0, by omega⟩) rfl rfl rfl).trans
      (rowStack_apply P0 _ i hi0 hi1 hi2 (by show (i 3).val = 4 * (0 + (j 2).val) + 0; omega))
  | ⟨1, _⟩ =>
    have hi3' : (i 3).val = 4 * (j 2).val + 1 := hi3
    exact (colTap_read (RowStack P0) 0 1 _ _ _ _ _ (by omega) (by omega) j
      (ix3 ⟨(j 1).val, hj1⟩ ⟨(j 3).val, hj3⟩ ⟨4 * (0 + (j 2).val) + 1, by omega⟩) rfl rfl rfl).trans
      (rowStack_apply P0 _ i hi0 hi1 hi2 (by show (i 3).val = 4 * (0 + (j 2).val) + 1; omega))
  | ⟨2, _⟩ =>
    have hi3' : (i 3).val = 4 * (j 2).val + 2 := hi3
    exact (colTap_read (RowStack P0) 0 2 _ _ _ _ _ (by omega) (by omega) j
      (ix3 ⟨(j 1).val, hj1⟩ ⟨(j 3).val, hj3⟩ ⟨4 * (0 + (j 2).val) + 2, by omega⟩) rfl rfl rfl).trans
      (rowStack_apply P0 _ i hi0 hi1 hi2 (by show (i 3).val = 4 * (0 + (j 2).val) + 2; omega))
  | ⟨3, _⟩ =>
    have hi3' : (i 3).val = 4 * (j 2).val + 3 := hi3
    exact (colTap_read (RowStack P0) 0 3 _ _ _ _ _ (by omega) (by omega) j
      (ix3 ⟨(j 1).val, hj1⟩ ⟨(j 3).val, hj3⟩ ⟨4 * (0 + (j 2).val) + 3, by omega⟩) rfl rfl rfl).trans
      (rowStack_apply P0 _ i hi0 hi1 hi2 (by show (i 3).val = 4 * (0 + (j 2).val) + 3; omega))
  | ⟨4, _⟩ =>
    have hi3' : (i 3).val = 4 * (j 2).val + 4 := hi3
    exact (colTap_read (RowStack P0) 1 0 _ _ _ _ _ (by omega) (by omega) j
      (ix3 ⟨(j 1).val, hj1⟩ ⟨(j 3).val, hj3⟩ ⟨4 * (1 + (j 2).val) + 0, by omega⟩) rfl rfl rfl).trans
      (rowStack_apply P0 _ i hi0 hi1 hi2 (by show (i 3).val = 4 * (1 + (j 2).val) + 0; omega))
  | ⟨5, _⟩ =>
    have hi3' : (i 3).val = 4 * (j 2).val + 5 := hi3
    exact (colTap_read (RowStack P0) 1 1 _ _ _ _ _ (by omega) (by omega) j
      (ix3 ⟨(j 1).val, hj1⟩ ⟨(j 3).val, hj3⟩ ⟨4 * (1 + (j 2).val) + 1, by omega⟩) rfl rfl rfl).trans
      (rowStack_apply P0 _ i hi0 hi1 hi2 (by show (i 3).val = 4 * (1 + (j 2).val) + 1; omega))
  | ⟨6, _⟩ =>
    have hi3' : (i 3).val = 4 * (j 2).val + 6 := hi3
    exact (colTap_read (RowStack P0) 1 2 _ _ _ _ _ (by omega) (by omega) j
      (ix3 ⟨(j 1).val, hj1⟩ ⟨(j 3).val, hj3⟩ ⟨4 * (1 + (j 2).val) + 2, by omega⟩) rfl rfl rfl).trans
      (rowStack_apply P0 _ i hi0 hi1 hi2 (by show (i 3).val = 4 * (1 + (j 2).val) + 2; omega))
  | ⟨7, _⟩ =>
    have hi3' : (i 3).val = 4 * (j 2).val + 7 := hi3
    exact (colTap_read (RowStack P0) 1 3 _ _ _ _ _ (by omega) (by omega) j
      (ix3 ⟨(j 1).val, hj1⟩ ⟨(j 3).val, hj3⟩ ⟨4 * (1 + (j 2).val) + 3, by omega⟩) rfl rfl rfl).trans
      (rowStack_apply P0 _ i hi0 hi1 hi2 (by show (i 3).val = 4 * (1 + (j 2).val) + 3; omega))

/-- THE BLOCK AT AN INDEX: entry (0, s, q) of what a point leaves in the output window is image entry
    (4 (s / 127) + q / 8, 4 (s % 127) + q % 8) of the point's input block. -/
theorem block_apply (P0 : Vec F S1x1x512x512 .f32) (y : S1x16129x64.Idx) (i : S1x1x512x512.Idx)
    (hi0 : (i 0).val = 0) (hi1 : (i 1).val = 0) (hi2 : (i 2).val = 4 * ((y 1).val / 127) + (y 2).val / 8)
    (hi3 : (i 3).val = 4 * ((y 1).val % 127) + (y 2).val % 8) : E1 P0 y = P0 i :=
  colTap_apply P0 (csel1_0 y) (ix1_0 y) i hi0 hi1 hi2 hi3

end Cert.KernelIdeal.Patches

end
-- ==== Proof.Spec.lean ====
/-
  The specification: strided 8 x 8 patches of a batch of single-channel 512 x 512 images.

  With stride 4 and no padding there are 127 x 127 patch positions. Output entry (b, s, q) — patch s = r * 127 + c,
  tap q = ki * 8 + kj — is image entry (b, 0, 4 r + ki, 4 c + kj). Nothing is computed: every output entry is one
  input entry, so the statement holds for entries of any type, and no finiteness of the input is used.
-/
import Idealize.ShloMosaic.Lib.ValueIdx

noncomputable section

namespace Cert.Patches

open Idealize.ShloMosaic Idealize.ShloMosaic.ValueIdx

/-- The image entry that output entry (b, s, q) copies: (b, 0, 4 (s / 127) + q / 8, 4 (s % 127) + q % 8). -/
abbrev src (i : (⟨3, ![32, 16129, 64]⟩ : Shape).Idx) : (⟨4, ![32, 1, 512, 512]⟩ : Shape).Idx :=
  have h1 : (i 1).val < 16129 := (i 1).isLt
  have h2 : (i 2).val < 64 := (i 2).isLt
  ix4 ⟨(i 0).val, (i 0).isLt⟩ ⟨0, Nat.one_pos⟩ ⟨4 * ((i 1).val / 127) + (i 2).val / 8, by omega⟩
    ⟨4 * ((i 1).val % 127) + (i 2).val % 8, by omega⟩

/-- The patch array of an image batch x. -/
def patches {α : Type} (x : (⟨4, ![32, 1, 512, 512]⟩ : Shape).Idx → α) : (⟨3, ![32, 16129, 64]⟩ : Shape).Idx → α :=
  fun i => x (src i)

end Cert.Patches

end
-- ==== Proof.Array.lean ====
/-
  From the blocks to the whole output array.

  Grid point t (t = 0 .. 31) stages image block t — x[t, 0, :, :] — and writes back output block t — out[t, :, :].
  What it writes back is, entry by entry, the patch array of the WHOLE input restricted to block t: block entry
  (0, s, q) is image-block entry (0, 0, 4 (s / 127) + q / 8, 4 (s % 127) + q % 8), which is entry
  (t, 0, 4 (s / 127) + q / 8, 4 (s % 127) + q % 8) of x. The 32 output blocks tile the array, so after the run the
  output array is the patch array of x.
-/
import proofs.«174867_j51161650430461_2_alg».proof.Proof.Gen.KernelIdeal.Value
import proofs.«174867_j51161650430461_2_alg».proof.Proof.Block
import proofs.«174867_j51161650430461_2_alg».proof.Proof.Spec

noncomputable section

namespace Cert.KernelIdeal.Patches

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

theorem zeros4 : (![0, 0, 0, 0] : Fin 4 → Nat) = fun _ => 0 := funext fun a => by fin_cases a <;> rfl

/-- The printed index maps over the grid: both windows' block index is the grid point on the leading axis and 0
    on the others. -/
theorem idx_facts : ∀ t : Fin cfg0.N,
    win0_0.index t (0 : Fin 4) = win0_1.index t (0 : Fin 3)
    ∧ win0_0.index t (1 : Fin 4) = 0 ∧ win0_0.index t (2 : Fin 4) = 0 ∧ win0_0.index t (3 : Fin 4) = 0
    ∧ win0_1.index t (1 : Fin 3) = 0 ∧ win0_1.index t (2 : Fin 3) = 0
    ∧ win0_1.index t (0 : Fin 3) ≤ 31 :=
  (by decide +kernel : ∀ t : Fin grid0.N, _)

/-- Every leading-axis position is some grid point's output block. -/
theorem idx_onto : ∀ q : Fin 32, ∃ t : Fin cfg0.N, win0_1.index t = ![q.val, 0, 0] :=
  (by decide +kernel : ∀ q : Fin 32, ∃ t : Fin grid0.N, win0_1.index t = ![q.val, 0, 0])

/-- WHAT POINT t WRITES BACK is block t of the patch array of the input as the region finds it. -/
theorem flushed_eq (c : Dev nD) (t : Fin cfg0.N) :
    (dats m 0 c).flushed 1 t
      = ((cfg0.win 1).blk t).view.read (Elt F) (Cert.Patches.patches (V m c main_arg0)) := by
  rw [flushed1]
  unfold out0_1
  obtain ⟨e0, e1, e2, e3, e4, e5, e6⟩ := idx_facts t
  funext j
  have hj0 : (j 0).val < 1 := (j 0).isLt
  have hj1 : (j 1).val < 16129 := (j 1).isLt
  have hj2 : (j 2).val < 64 := (j 2).isLt
  show View.canon [⟨r0_1, k0_pay1 (k0_pay2 (View.ld (iblk m c 0 t) r0_0))⟩] j
    = V m c main_arg0 (Cert.Patches.src (((cfg0.win 1).blk t).view.emb j))
  refine (canon1_eq _ j).trans ?_
  refine (block_apply _ j
    (ix4 ⟨0, Nat.one_pos⟩ ⟨0, Nat.one_pos⟩ ⟨4 * ((j 1).val / 127) + (j 2).val / 8, by omega⟩
      ⟨4 * ((j 1).val % 127) + (j 2).val % 8, by omega⟩) rfl rfl rfl rfl).trans ?_
  refine (congrFun (View.ld_unit_zero (S := S1x1x512x512) zeros4 _ (iblk m c 0 t)) _).trans ?_
  show V m c main_arg0 (((cfg0.win 0).blk t).view.emb _) = _
  refine congrArg (V m c main_arg0) (funext fun a => Fin.ext ?_)
  match a with
  | ⟨0, _⟩ =>
    show win0_0.index t (0 : Fin 4) * 1 + 1 * 0 = win0_1.index t (0 : Fin 3) * 1 + 1 * (j 0).val
    omega
  | ⟨1, _⟩ =>
    show win0_0.index t (1 : Fin 4) * 1 + 1 * 0 = 0
    omega
  | ⟨2, _⟩ =>
    show win0_0.index t (2 : Fin 4) * 512 + 1 * (4 * ((j 1).val / 127) + (j 2).val / 8)
      = 4 * ((win0_1.index t (1 : Fin 3) * 16129 + 1 * (j 1).val) / 127) + (win0_1.index t (2 : Fin 3) * 64 + 1 * (j 2).val) / 8
    rw [e2, e4, e5]
    omega
  | ⟨3, _⟩ =>
    show win0_0.index t (3 : Fin 4) * 512 + 1 * (4 * ((j 1).val % 127) + (j 2).val % 8)
      = 4 * ((win0_1.index t (1 : Fin 3) * 16129 + 1 * (j 1).val) % 127) + (win0_1.index t (2 : Fin 3) * 64 + 1 * (j 2).val) % 8
    rw [e3, e4, e5]
    omega

/-- An index of the output array is in point t's block iff each coordinate is in the block's range on its axis. -/
theorem mem_blk (t : Fin cfg0.N) (i : S32x16129x64.Idx) :
    i ∈ ((cfg0.win 1).blk t).view.set ↔ ∀ a : Fin 3, win0_1.index t a * S1x16129x64.size a ≤ (i a).val
      ∧ (i a).val < win0_1.index t a * S1x16129x64.size a + S1x16129x64.size a := by
  show i ∈ ((View.whole main_v0).slice (win0_1.rect t)).set ↔ _
  rw [View.set_slice_whole, Rect.mem_set_unit]
  exact Iff.rfl

/-- The 32 output blocks cover the output array. -/
theorem cover (i : S32x16129x64.Idx) :
    ∃ t : Fin cfg0.N, (cfg0.win 1).flush t = true ∧ i ∈ ((cfg0.win 1).blk t).view.set := by
  have hi0 : (i 0).val < 32 := (i 0).isLt
  have hi1 : (i 1).val < 16129 := (i 1).isLt
  have hi2 : (i 2).val < 64 := (i 2).isLt
  obtain ⟨t, ht⟩ := idx_onto ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 16129 ≤ (i 1).val ∧ (i 1).val < win0_1.index t (1 : Fin 3) * 16129 + 16129
    omega
  | ⟨2, _⟩ =>
    show win0_1.index t (2 : Fin 3) * 64 ≤ (i 2).val ∧ (i 2).val < win0_1.index t (2 : Fin 3) * 64 + 64
    omega

/-- THE OUTPUT ARRAY after the run is the patch array of the input. -/
theorem final (c : Dev nD) :
    (dats m 0 c).arrAt 1 cfg0.N = Cert.Patches.patches (m ((c : Thread nD τ).loc main_arg0)) :=
  (dats m 0 c).arrAt_eq_of_cover 1 (Cert.Patches.patches (V m c main_arg0)) (fun t _ => flushed_eq m c t) cover

/-- The kernel's run, read: the result array ends at the patch array of the argument, the argument unchanged. -/
theorem run : θ_run defs (onTc (τ := τ) (main (F := F))) ⟨m, fun _ => 0, ρ⟩ fun r => ∀ c : Dev nD,
      r.2.mem ((c : Thread nD τ).loc main_v0) = Cert.Patches.patches (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Patches

end
-- ==== Proof.LibPickGather.lean ====
/-
  A gather that picks single entries of the two trailing axes of a rank-3 operand.

  jnp's advanced indexing x[:, I, J] with index arrays I, J of one common shape [R, C, K, L] lowers to ONE
  stablehlo.gather of the operand [B, H, W] at start indices [R, C, K, L, 2] (the last axis holds the pair (I, J)):
  offset axis 0 carries the whole leading axis (slice size B), the two trailing operand axes are collapsed (slice size
  1) and are the ones the start index names. Result entry (b, r, c, k, l) is therefore the operand at
  (b, I[r, c, k, l], J[r, c, k, l]), each start component read signed and clamped into its axis.
-/
import Idealize.ShloMosaic.Lib.ValueIdx

noncomputable section

namespace Idealize.ShloMosaic.PickGather

open Idealize.ShloMosaic Idealize.ShloMosaic.ValueIdx

variable {α : Type}

/-- The dimension numbers of that gather: offset axis [0], collapsed axes [1, 2], start index map [1, 2], the index
    vector on the start indices' last axis, slice sizes [B, 1, 1]. The well-formedness conditions are decided on a
    program's literal shapes. -/
abbrev pickDims (B H W R C K L : Nat)
    (wf : GatherDims.WF ⟨3, ![B, H, W]⟩ ⟨5, ![R, C, K, L, 2]⟩ ⟨5, ![B, R, C, K, L]⟩ [0] [1, 2] [] [1, 2] [] 4 ![B, 1, 1]) :
    GatherDims ⟨3, ![B, H, W]⟩ ⟨5, ![R, C, K, L, 2]⟩ ⟨5, ![B, R, C, K, L]⟩ where
  offsetDims := [0]
  collapsedSliceDims := [1, 2]
  operandBatchingDims := []
  startIndicesBatchingDims := []
  startIndexMap := [1, 2]
  indexVectorDim := 4
  sliceSizes := ![B, 1, 1]
  wf := wf

/-- Where result index (b, r, c, k, l) reads component e of its start index: (r, c, k, l, e). -/
abbrev pickIdx {B R C K L : Nat} (y : (⟨5, ![B, R, C, K, L]⟩ : Shape).Idx) (e : Fin 2) : (⟨5, ![R, C, K, L, 2]⟩ : Shape).Idx :=
  fun a => match a with
    | ⟨0, _⟩ => ⟨(y 1).val, (y 1).isLt⟩
    | ⟨1, _⟩ => ⟨(y 2).val, (y 2).isLt⟩
    | ⟨2, _⟩ => ⟨(y 3).val, (y 3).isLt⟩
    | ⟨3, _⟩ => ⟨(y 4).val, (y 4).isLt⟩
    | ⟨4, _⟩ => e

/-- THE GATHER READ AT (b, r, c, k, l): the operand at row b, at the two start components read signed and clamped
    into [0, H − 1] and [0, W − 1]. -/
theorem gather_pick_apply {B H W R C K L w : Nat}
    (wf : GatherDims.WF ⟨3, ![B, H, W]⟩ ⟨5, ![R, C, K, L, 2]⟩ ⟨5, ![B, R, C, K, L]⟩ [0] [1, 2] [] [1, 2] [] 4 ![B, 1, 1])
    (x : (⟨3, ![B, H, W]⟩ : Shape).Idx → α) (idx : IVec ⟨5, ![R, C, K, L, 2]⟩ w)
    (y : (⟨5, ![B, R, C, K, L]⟩ : Shape).Idx) (k : (⟨3, ![B, H, W]⟩ : Shape).Idx)
    (hk0 : (k 0).val = (y 0).val)
    (hk1 : (k 1).val = min (idx (pickIdx y 0)).toInt.toNat (H - 1))
    (hk2 : (k 2).val = min (idx (pickIdx y 1)).toInt.toNat (W - 1)) :
    Host.gather (pickDims B H W R C K L wf) x idx y = x k := by
  unfold Host.gather
  refine congrArg x (funext fun a => Fin.ext ?_)
  show (pickDims B H W R C K L wf).start y idx a + (pickDims B H W R C K L wf).batchCoord y a
    + (pickDims B H W R C K L wf).offCoord y a = (k a).val
  rw [GatherDims.batchCoord_eq_zero _ _ _ List.not_mem_nil, Nat.add_zero]
  have n0 : ¬ (0 : Fin 3) ∈ ([1, 2] : List (Fin 3)) := by decide
  have m1 : (1 : Fin 3) ∈ ([1, 2] : List (Fin 3)) := by decide
  have m2 : (2 : Fin 3) ∈ ([1, 2] : List (Fin 3)) := by decide
  match a with
  | ⟨0, h0⟩ =>
    unfold GatherDims.start
    rw [dif_neg (show ¬ (⟨0, h0⟩ : Fin 3) ∈ (pickDims B H W R C K L wf).startIndexMap from n0), Nat.zero_add]
    unfold GatherDims.offCoord
    rw [dif_pos ((GatherDims.mem_sKept _ _).mpr ⟨(show ¬ (⟨0, h0⟩ : Fin 3) ∈ (pickDims B H W R C K L wf).collapsedSliceDims from n0),
      List.not_mem_nil⟩)]
    exact hk0.symm
  | ⟨1, h1⟩ =>
    rw [GatherDims.offCoord_eq_zero _ _ _ (fun h => ((GatherDims.mem_sKept _ _).mp h).1
      (show (⟨1, h1⟩ : Fin 3) ∈ (pickDims B H W R C K L wf).collapsedSliceDims from m1)), Nat.add_zero]
    unfold GatherDims.start
    rw [dif_pos (show (⟨1, h1⟩ : Fin 3) ∈ (pickDims B H W R C K L wf).startIndexMap from m1)]
    have hsi : (pickDims B H W R C K L wf).siIdx y ⟨List.idxOf (⟨1, h1⟩ : Fin 3) (pickDims B H W R C K L wf).startIndexMap,
        List.idxOf_lt_length_iff.2 (show (⟨1, h1⟩ : Fin 3) ∈ (pickDims B H W R C K L wf).startIndexMap from m1)⟩ = pickIdx y 0 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    exact hk1.symm
  | ⟨2, h2⟩ =>
    rw [GatherDims.offCoord_eq_zero _ _ _ (fun h => ((GatherDims.mem_sKept _ _).mp h).1
      (show (⟨2, h2⟩ : Fin 3) ∈ (pickDims B H W R C K L wf).collapsedSliceDims from m2)), Nat.add_zero]
    unfold GatherDims.start
    rw [dif_pos (show (⟨2, h2⟩ : Fin 3) ∈ (pickDims B H W R C K L wf).startIndexMap from m2)]
    have hsi : (pickDims B H W R C K L wf).siIdx y ⟨List.idxOf (⟨2, h2⟩ : Fin 3) (pickDims B H W R C K L wf).startIndexMap,
        List.idxOf_lt_length_iff.2 (show (⟨2, h2⟩ : Fin 3) ∈ (pickDims B H W R C K L wf).startIndexMap from m2)⟩ = pickIdx y 1 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    exact hk2.symm

end Idealize.ShloMosaic.PickGather

end
-- ==== Proof.RefValue.lean ====
/-
  The reference computes the patch array.

  The reference builds two integer tables, rows[r, ki] = 4 r + ki and cols[c, kj] = 4 c + kj (an iota times 4 plus
  an iota, as 32-bit words), wraps negative entries by +512 (none is negative), broadcasts both to [127, 127, 8, 8],
  pairs them on a last axis of extent 2 and gathers x[:, 0][:, rows, cols]. Every table entry is at most 511, so the
  words do not wrap, the sign test is false, and the gather's clamp into [0, 511] changes nothing: result entry
  (b, r, c, ki, kj) is image entry (b, 0, 4 r + ki, 4 c + kj). The zero-width pad before it is the identity, and the
  final reshape to [32, 16129, 64] reads position s = r * 127 + c, q = ki * 8 + kj.
-/
import proofs.«174867_j51161650430461_2_alg».proof.Proof.Gen.ReferenceIdeal.Read
import proofs.«174867_j51161650430461_2_alg».proof.Proof.LibPickGather
import proofs.«174867_j51161650430461_2_alg».proof.Proof.Spec
import Idealize.ShloMosaic.Lib.KernelVsHost

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.ShloMosaic.PickGather

variable {F : FTy → Type} [FloatOps F]

/-! ## The index words -/

/-- A table entry 4 r + k as a 32-bit word: the product and the sum do not wrap. -/
theorem word_eq (r k : Nat) (hr : r < 127) (hk : k < 8) :
    IntOp.addi (IntOp.muli (BitVec.ofNat 32 r) 4#32) (BitVec.ofNat 32 k) = BitVec.ofNat 32 (4 * r + k) := by
  unfold IntOp.addi IntOp.muli
  apply BitVec.eq_of_toNat_eq
  simp only [BitVec.toNat_add, BitVec.toNat_mul, BitVec.toNat_ofNat]
  omega

theorem word_toNat (n : Nat) (h : n < 512) : (BitVec.ofNat 32 n).toNat = n := by
  rw [BitVec.toNat_ofNat]; exact Nat.mod_eq_of_lt (by omega)

/-- A word below 512 is not negative. -/
theorem word_not_neg (n : Nat) (h : n < 512) : IntOp.cmpi .slt (BitVec.ofNat 32 n) 0#32 = 0#1 := by
  have h1 := word_toNat n h
  have e : (BitVec.ofNat 32 n).slt 0#32 = false := by
    unfold BitVec.slt
    rw [BitVec.toInt_eq_toNat_of_lt (by rw [h1]; omega), h1]
    simp
  show BitVec.ofBool ((BitVec.ofNat 32 n).slt 0#32) = 0#1
  rw [e]
  rfl

/-- Read signed, a word below 512 is itself, and the clamp into [0, 511] keeps it. -/
theorem word_clamp (n : Nat) (h : n < 512) : min (BitVec.ofNat 32 n).toInt.toNat (512 - 1) = n := by
  have h1 := word_toNat n h
  rw [BitVec.toInt_eq_toNat_of_lt (by rw [h1]; omega), h1]
  show min n 511 = n
  omega

/-- The row table after the sign wrap: entry (r, 0, ki, 0) is 4 r + ki. -/
theorem rowIndex_apply (j : S127x1x8x1.Idx) :
    val_main_v26 (F := F) j = BitVec.ofNat 32 (4 * (j 0).val + (j 2).val) := by
  have hj0 : (j 0).val < 127 := (j 0).isLt
  have hj2 : (j 2).val < 8 := (j 2).isLt
  have h20 : val_main_v20 (F := F) j = BitVec.ofNat 32 (4 * (j 0).val + (j 2).val) := by
    rw [val_main_v20_apply, val_main_v9_apply, val_main_v7_apply, val_main_v4_apply, val_main_v3_apply,
      val_main_v1_apply, val_main_v2_apply, val_main_c_0_apply, val_main_v8_apply, val_main_v6_apply, val_main_v5_apply]
    exact word_eq _ _ hj0 hj2
  rw [val_main_v26_apply, val_main_v23_apply, h20, val_main_v22_apply, val_main_c_2_apply,
    word_not_neg _ (by omega), select_zero]

/-- The column table after the sign wrap: entry (0, c, 0, kj) is 4 c + kj. -/
theorem colIndex_apply (j : S1x127x1x8.Idx) :
    val_main_v31 (F := F) j = BitVec.ofNat 32 (4 * (j 1).val + (j 3).val) := by
  have hj1 : (j 1).val < 127 := (j 1).isLt
  have hj3 : (j 3).val < 8 := (j 3).isLt
  have h21 : val_main_v21 (F := F) j = BitVec.ofNat 32 (4 * (j 1).val + (j 3).val) := by
    rw [val_main_v21_apply, val_main_v18_apply, val_main_v16_apply, val_main_v13_apply, val_main_v12_apply,
      val_main_v10_apply, val_main_v11_apply, val_main_c_1_apply, val_main_v17_apply, val_main_v15_apply, val_main_v14_apply]
    exact word_eq _ _ hj1 hj3
  rw [val_main_v31_apply, val_main_v28_apply, h21, val_main_v27_apply, val_main_c_4_apply,
    word_not_neg _ (by omega), select_zero]

/-- Entry (r, c, ki, kj, 0) of either broadcast table, under result index (b, r, c, ki, kj). -/
abbrev tblIdx (y : S32x127x127x8x8.Idx) : S127x127x8x8x1.Idx := fun a => match a with
  | ⟨0, _⟩ => ⟨(y 1).val, (y 1).isLt⟩
  | ⟨1, _⟩ => ⟨(y 2).val, (y 2).isLt⟩
  | ⟨2, _⟩ => ⟨(y 3).val, (y 3).isLt⟩
  | ⟨3, _⟩ => ⟨(y 4).val, (y 4).isLt⟩
  | ⟨4, _⟩ => ⟨0, Nat.one_pos⟩

/-- The paired start indices: component 0 at (r, c, ki, kj) is the row 4 r + ki. -/
theorem start_row (y : S32x127x127x8x8.Idx) :
    val_main_v36 (F := F) (pickIdx y 0) = BitVec.ofNat 32 (4 * (y 1).val + (y 3).val) := by
  unfold val_main_v36
  refine (concatenate_pair_apply_left (t := S127x127x8x8x2) (s₁ := S127x127x8x8x1) (s₂ := S127x127x8x8x1) (4 : Fin 5) _ _ _ (pickIdx y 0) rfl (tblIdx y) (fun b => by
    match b with
    | ⟨0, _⟩ => rfl
    | ⟨1, _⟩ => rfl
    | ⟨2, _⟩ => rfl
    | ⟨3, _⟩ => rfl
    | ⟨4, _⟩ => rfl)).trans ?_
  rw [val_main_v34_apply, val_main_v32_apply, rowIndex_apply]

/-- The paired start indices: component 1 at (r, c, ki, kj) is the column 4 c + kj. -/
theorem start_col (y : S32x127x127x8x8.Idx) :
    val_main_v36 (F := F) (pickIdx y 1) = BitVec.ofNat 32 (4 * (y 2).val + (y 4).val) := by
  unfold val_main_v36
  refine (concatenate_pair_apply_right (t := S127x127x8x8x2) (s₁ := S127x127x8x8x1) (s₂ := S127x127x8x8x1) (4 : Fin 5) _ _ _ (pickIdx y 1) rfl rfl (tblIdx y)
      (fun b hb => by
        match b with
        | ⟨0, _⟩ => rfl
        | ⟨1, _⟩ => rfl
        | ⟨2, _⟩ => rfl
        | ⟨3, _⟩ => rfl
        | ⟨4, _⟩ => exact absurd rfl hb)
      rfl).trans ?_
  rw [val_main_v35_apply, val_main_v33_apply, colIndex_apply]

/-! ## The gather, the pad and the reshapes -/

/-- The zero-width pad is the identity. -/
theorem pad_apply (x0 : (⟨S32x1x512x512, .f32⟩ : BufTy).Contents (Elt F)) (j : S32x1x512x512.Idx) :
    val_main_v0 (F := F) x0 j = x0 j := by
  unfold val_main_v0
  exact pad_apply_of_inside _ _ _ x0 _ _ _ j j (fun a => by
    match a with
    | ⟨0, _⟩ => show (j 0).val = 0 + (j 0).val * (0 + 1); omega
    | ⟨1, _⟩ => show (j 1).val = 0 + (j 1).val * (0 + 1); omega
    | ⟨2, _⟩ => show (j 2).val = 0 + (j 2).val * (0 + 1); omega
    | ⟨3, _⟩ => show (j 3).val = 0 + (j 3).val * (0 + 1); omega)

/-- The gathered array at (b, r, c, ki, kj) is image entry (b, 0, 4 r + ki, 4 c + kj). -/
theorem gathered_apply (x0 : (⟨S32x1x512x512, .f32⟩ : BufTy).Contents (Elt F)) (y : S32x127x127x8x8.Idx)
    (i : S32x1x512x512.Idx) (hi0 : (i 0).val = (y 0).val) (hi1 : (i 1).val = 0)
    (hi2 : (i 2).val = 4 * (y 1).val + (y 3).val) (hi3 : (i 3).val = 4 * (y 2).val + (y 4).val) :
    val_main_v37 (F := F) x0 y = x0 i := by
  have hy0 : (y 0).val < 32 := (y 0).isLt
  have hy1 : (y 1).val < 127 := (y 1).isLt
  have hy2 : (y 2).val < 127 := (y 2).isLt
  have hy3 : (y 3).val < 8 := (y 3).isLt
  have hy4 : (y 4).val < 8 := (y 4).isLt
  unfold val_main_v37
  show Host.gather (pickDims 32 512 512 127 127 8 8 _) (val_main_v19 (F := F) x0) (val_main_v36 (F := F)) y = _
  have hr : 4 * (y 1).val + (y 3).val < 512 := by omega
  have hc : 4 * (y 2).val + (y 4).val < 512 := by omega
  refine (gather_pick_apply _ _ _ y
      (ix3 (n0 := 32) (n1 := 512) (n2 := 512) ⟨(y 0).val, hy0⟩ ⟨4 * (y 1).val + (y 3).val, hr⟩ ⟨4 * (y 2).val + (y 4).val, hc⟩)
      rfl
      (by rw [start_row]; exact (word_clamp _ hr).symm)
      (by rw [start_col]; exact (word_clamp _ hc).symm)).trans ?_
  rw [val_main_v19_apply, pad_apply]
  refine congrArg x0 (funext fun a => Fin.ext ?_)
  match a with
  | ⟨0, _⟩ =>
    show (((y 0).val * 512 + (4 * (y 1).val + (y 3).val)) * 512 + (4 * (y 2).val + (y 4).val)) / 262144 = (i 0).val
    omega
  | ⟨1, _⟩ => show 0 = (i 1).val; omega
  | ⟨2, _⟩ =>
    show (((y 0).val * 512 + (4 * (y 1).val + (y 3).val)) * 512 + (4 * (y 2).val + (y 4).val)) / 512 % 512 = (i 2).val
    omega
  | ⟨3, _⟩ =>
    show (((y 0).val * 512 + (4 * (y 1).val + (y 3).val)) * 512 + (4 * (y 2).val + (y 4).val)) % 512 = (i 3).val
    omega

/-- THE REFERENCE IS THE PATCH ARRAY. -/
theorem reference_eq (x0 : (⟨S32x1x512x512, .f32⟩ : BufTy).Contents (Elt F)) :
    val_main_v38 (F := F) x0 = Cert.Patches.patches x0 := by
  funext i
  have h0 : (i 0).val < 32 := (i 0).isLt
  have h1 : (i 1).val < 16129 := (i 1).isLt
  have h2 : (i 2).val < 64 := (i 2).isLt
  rw [val_main_v38_apply]
  refine gathered_apply x0 _ (Cert.Patches.src i) ?_ rfl ?_ ?_
  · show (i 0).val = (((i 0).val * 16129 + (i 1).val) * 64 + (i 2).val) / 1032256
    omega
  · show 4 * ((i 1).val / 127) + (i 2).val / 8
      = 4 * ((((i 0).val * 16129 + (i 1).val) * 64 + (i 2).val) / 8128 % 127)
        + (((i 0).val * 16129 + (i 1).val) * 64 + (i 2).val) / 8 % 8
    omega
  · show 4 * ((i 1).val % 127) + (i 2).val % 8
      = 4 * ((((i 0).val * 16129 + (i 1).val) * 64 + (i 2).val) / 64 % 127)
        + (((i 0).val * 16129 + (i 1).val) * 64 + (i 2).val) % 8
    omega

end Cert.ReferenceIdeal.RefValue

end
-- ==== Proof.lean ====
/-
  Patch extraction: a Pallas kernel that re-lays each 512 x 512 image into its 127 x 127 strided 8 x 8 patches by
  two transposes and unit-stride slices, against a jnp reference that gathers the same entries with integer index
  tables. Both are pure data movement: output entry (b, r * 127 + c, ki * 8 + kj) is image entry
  (b, 0, 4 r + ki, 4 c + kj) on either side (Proof/Spec.lean), so the two results are equal entry by entry over the
  extended reals — indeed over any entries; the finiteness of the input is never used.

  Kernel side: Proof/Taps.lean reads the body's slice / transpose / reshape chains at an index, Proof/Block.lean
  composes them into the block one grid point leaves, Proof/Array.lean tiles the 32 blocks into the output array.
  Reference side: Proof/LibPickGather.lean reads the two-component gather at an index, Proof/RefValue.lean evaluates
  the index tables (no 32-bit word wraps, none is negative, the clamp is idle) and reads the pad and the reshapes.
  The three frames are the generated ones; the idealization rewrote nothing, so its conjunct is trivial.
-/
import proofs.«174867_j51161650430461_2_alg».proof.Defs
import proofs.«174867_j51161650430461_2_alg».proof.Proof.Gen.Kernel
import proofs.«174867_j51161650430461_2_alg».proof.Proof.Gen.Kernel.Skeleton
import proofs.«174867_j51161650430461_2_alg».proof.Proof.Gen.Kernel.Launch
import proofs.«174867_j51161650430461_2_alg».proof.Proof.Gen.Kernel.Points
import proofs.«174867_j51161650430461_2_alg».proof.Proof.Gen.Kernel.Frame
import proofs.«174867_j51161650430461_2_alg».proof.Proof.Gen.KernelIdeal
import proofs.«174867_j51161650430461_2_alg».proof.Proof.Gen.KernelIdeal.Skeleton
import proofs.«174867_j51161650430461_2_alg».proof.Proof.Gen.KernelIdeal.Launch
import proofs.«174867_j51161650430461_2_alg».proof.Proof.Gen.KernelIdeal.Points
import proofs.«174867_j51161650430461_2_alg».proof.Proof.Gen.KernelIdeal.Frame
import proofs.«174867_j51161650430461_2_alg».proof.Proof.Gen.ReferenceIdeal
import proofs.«174867_j51161650430461_2_alg».proof.Proof.Gen.Pre_finite_inputs
import proofs.«174867_j51161650430461_2_alg».proof.Proof.Gen.KernelIdeal.Value
import proofs.«174867_j51161650430461_2_alg».proof.Proof.Gen.ReferenceIdeal.Run
import proofs.«174867_j51161650430461_2_alg».proof.Proof.Gen.ReferenceIdeal.Read
import proofs.«174867_j51161650430461_2_alg».proof.Proof.Array
import proofs.«174867_j51161650430461_2_alg».proof.Proof.RefValue
import Idealize.ShloMosaic.Adequacy
import Idealize.ShloMosaic.Init

noncomputable section

namespace Cert.Proof

open Idealize.ShloMosaic Idealize.SL.Sem

/-- The word-level kernel terminates without a fault and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the image batch, the kernel's output array and the reference's result are both the
    patch array of that batch. -/
theorem algebraic : Cert.algebraic_KernelIdeal_ReferenceIdeal := by
  intro m ρ m' ρ' _ hagree
  refine ⟨fun c => Cert.Patches.patches (m ((c.tc : Thread Cert.KernelIdeal.nD Cert.KernelIdeal.τ).loc Cert.KernelIdeal.main_arg0)),
    Cert.KernelIdeal.Patches.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v38_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
